-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : FVec F S128x128 .f32) (main_arg3 : FVec F S128 .f32) (main_arg4 : FVec F S64x128 .f32) (main_arg5 : FVec F S64 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 102
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000, .f32⟩
  | .hbm, ⟨21, _⟩ => ⟨S_, .f32⟩
  | .hbm, ⟨22, _⟩ => ⟨S800000, .f32⟩
  | .hbm, ⟨23, _⟩ => ⟨S800000, .f32⟩
  | .hbm, ⟨24, _⟩ => ⟨S800000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000, .f32⟩
  | .hbm, ⟨68, _⟩ => ⟨S_, .f32⟩
  | .hbm, ⟨69, _⟩ => ⟨S800000, .f32⟩
  | .hbm, ⟨70, _⟩ => ⟨S800000, .f32⟩
  | .hbm, ⟨71, _⟩ => ⟨S800000, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x1, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S_, .f32⟩
  | .hbm, ⟨89, _⟩ => ⟨S800000, .f32⟩
  | .hbm, ⟨90, _⟩ => ⟨S_, .f32⟩
  | .hbm, ⟨91, _⟩ => ⟨S50000, .f32⟩
  | .hbm, ⟨92, _⟩ => ⟨S800000x1, .i32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S1x64, .f32⟩
  | .hbm, ⟨101, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S64x128, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000, .f32⟩
  | .hbm, ⟨21, _⟩ => ⟨S_, .f32⟩
  | .hbm, ⟨22, _⟩ => ⟨S800000, .f32⟩
  | .hbm, ⟨23, _⟩ => ⟨S800000, .f32⟩
  | .hbm, ⟨24, _⟩ => ⟨S800000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000, .f32⟩
  | .hbm, ⟨75, _⟩ => ⟨S_, .f32⟩
  | .hbm, ⟨76, _⟩ => ⟨S800000, .f32⟩
  | .hbm, ⟨77, _⟩ => ⟨S800000, .f32⟩
  | .hbm, ⟨78, _⟩ => ⟨S800000, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S800000x1, .f32⟩
  | .hbm, ⟨89, _⟩ => ⟨S800000x128, .f32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S_, .f32⟩
  | .hbm, ⟨96, _⟩ => ⟨S800000, .f32⟩
  | .hbm, ⟨97, _⟩ => ⟨S_, .f32⟩
  | .hbm, ⟨98, _⟩ => ⟨S50000, .f32⟩
  | .hbm, ⟨99, _⟩ => ⟨S800000x1, .i32⟩
  | .hbm, ⟨100, _⟩ => ⟨S50000, .f32⟩
  | .hbm, ⟨101, _⟩ => ⟨S_, .f32⟩
  | .hbm, ⟨102, _⟩ => ⟨S50000, .f32⟩
  | .hbm, ⟨103, _⟩ => ⟨S50000, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S128x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S50000x64, .f32⟩
  | .hbm, ⟨115, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call1_cst : Ref sig .tc := ⟨.hbm, 113, rfl⟩
abbrev main_call1_v0 : Ref sig .tc := ⟨.hbm, 114, rfl⟩
abbrev main_v83 : Ref sig .tc := ⟨.hbm, 115, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The run of the idealized kernel program with its RESULT named.
  @main is four segments: the host operations that compute the first aggregation, the first dense-layer region, the
  host operations that compute the second aggregation from the first layer's output, and the second dense-layer
  region. Every weakly fair execution runs them in this order and ends with every unscoped buffer at the contents the
  last boundary names: host operations applied to the launch memory, each region's output array at the fold of its
  grid points' write-backs. Read at the result buffer this names the result; read at the arguments it says they are
  unchanged.
-/
import proofs.«157819_j37675453120772_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W4` (the second region's output array after all its write-backs) and the arguments end as launched. -/
theorem run_result : θ_run defs (onTc (τ := τ) (main (F := F))) ⟨m, fun _ => 0, ρ⟩ (fun r => ∀ c : Dev nD,
      r.2.mem ((c.tc : Thread nD τ).loc main_v73) = W4 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v73 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.GinRun

end
-- ==== Proof.Dense.lean ====
/-
  One dense layer applied to a node's own features plus its aggregated neighbourhood, over the extended reals.
  For node features x and aggregated features agg (both [N, K]), a weight W stored with the output feature on its
  first axis ([D, K]) and a bias laid out as a row ([1, D]), entry (r, c) of the layer's output is

      max ( Σ_k (x[r, k] + agg[r, k]) · W[c, k]  +  b[0, c] ,  0 ).

  Entry (r, c) depends on row r of x and agg only, so the function of a block of rows is the block of the
  function: this is what lets a row-tiled evaluation be read as one whole-array function.
-/
import Idealize.ShloMosaic.Lib.ValueIdx
import Idealize.ShloMosaic.PureOps.Ideal

noncomputable section

namespace Cert.GinDense

open Idealize.ShloMosaic Idealize.ShloMosaic.ValueIdx

variable {N D K : ℕ}

/-- The layer's output as a function of its four operands, entry by entry. -/
def dense (x agg : (⟨2, ![N, K]⟩ : Shape).Idx → EReal) (W : (⟨2, ![D, K]⟩ : Shape).Idx → EReal)
    (brow : (⟨2, ![1, D]⟩ : Shape).Idx → EReal) : (⟨2, ![N, D]⟩ : Shape).Idx → EReal :=
  fun i => max ((∑ k : Fin K, (x (ix2 (n0 := N) (i 0) k) + agg (ix2 (n0 := N) (i 0) k)) * W (ix2 (n0 := D) (i 1) k))
    + brow (ix2 (n0 := 1) (n1 := D) 0 (i 1))) 0

/-- The layer at the entry with row `r` and column `c`. -/
theorem dense_apply (x agg : (⟨2, ![N, K]⟩ : Shape).Idx → EReal) (W : (⟨2, ![D, K]⟩ : Shape).Idx → EReal)
    (brow : (⟨2, ![1, D]⟩ : Shape).Idx → EReal) (r : Fin N) (c : Fin D) :
    dense x agg W brow (ix2 r c)
      = max ((∑ k : Fin K, (x (ix2 r k) + agg (ix2 r k)) * W (ix2 c k)) + brow (ix2 0 c)) 0 := rfl

/-- Rows decide rows: if two pairs of operands agree on row `r'` of the one and row `r` of the other, the layer's
    entries in those rows agree. -/
theorem dense_row_congr {N' : ℕ} (x agg : (⟨2, ![N, K]⟩ : Shape).Idx → EReal) (x' agg' : (⟨2, ![N', K]⟩ : Shape).Idx → EReal)
    (W : (⟨2, ![D, K]⟩ : Shape).Idx → EReal) (brow : (⟨2, ![1, D]⟩ : Shape).Idx → EReal) (r : Fin N) (r' : Fin N') (c : Fin D)
    (hx : ∀ k : Fin K, x' (ix2 r' k) = x (ix2 r k)) (hagg : ∀ k : Fin K, agg' (ix2 r' k) = agg (ix2 r k)) :
    dense x' agg' W brow (ix2 r' c) = dense x agg W brow (ix2 r c) := by
  rw [dense_apply, dense_apply]
  simp only [hx, hagg]

/-- A BLOCK OF ROWS. If a block of x and of agg holds, in its row `j 0`, row `i 0` of the whole arrays, the weight and
    the bias row are the whole ones, and the columns `j 1` and `i 1` are the same number, then the layer of the blocks at
    `j` is the layer of the whole arrays at `i`. -/
theorem dense_block {n : ℕ} (X A : (⟨2, ![N, K]⟩ : Shape).Idx → EReal) (W : (⟨2, ![D, K]⟩ : Shape).Idx → EReal)
    (brow : (⟨2, ![1, D]⟩ : Shape).Idx → EReal) (xb ab : (⟨2, ![n, K]⟩ : Shape).Idx → EReal)
    (Wb : (⟨2, ![D, K]⟩ : Shape).Idx → EReal) (bb : (⟨2, ![1, D]⟩ : Shape).Idx → EReal)
    (j : (⟨2, ![n, D]⟩ : Shape).Idx) (i : (⟨2, ![N, D]⟩ : Shape).Idx) (hW : Wb = W) (hb : bb = brow)
    (hx : ∀ k : Fin K, xb (ix2 (n0 := n) (j 0) k) = X (ix2 (n0 := N) (i 0) k))
    (ha : ∀ k : Fin K, ab (ix2 (n0 := n) (j 0) k) = A (ix2 (n0 := N) (i 0) k))
    (hc : (j 1).val = (i 1).val) :
    dense xb ab Wb bb j = dense X A W brow i := by
  subst hW hb
  have hji : (j 1 : Fin D) = (i 1 : Fin D) := Fin.ext hc
  show max ((∑ k : Fin K, (xb (ix2 (n0 := n) (j 0) k) + ab (ix2 (n0 := n) (j 0) k)) * Wb (ix2 (n0 := D) (j 1) k))
      + bb (ix2 (n0 := 1) (n1 := D) 0 (j 1))) 0
    = max ((∑ k : Fin K, (X (ix2 (n0 := N) (i 0) k) + A (ix2 (n0 := N) (i 0) k)) * Wb (ix2 (n0 := D) (i 1) k))
      + bb (ix2 (n0 := 1) (n1 := D) 0 (i 1))) 0
  simp only [hx, ha, hji]

end Cert.GinDense

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.Body.lean ====
/-
  What each kernel body computes from the blocks it loads, over the extended reals.
  A body loads a block of 5000 rows of the node features and of the aggregated features, the whole weight (output
  feature on the first axis) and the bias as one row; it adds the two blocks, multiplies by the transposed weight on
  the matrix unit into a zero accumulator, adds the bias row to every row and clamps at zero. Over the extended reals
  the change of float format before the product is the identity and the product into zero is the plain sum over the
  shared axis, so the stored value is the dense layer `Cert.GinDense.dense` of the four loaded blocks.
-/
import proofs.«157819_j37675453120772_1_alg».proof.Proof.Gen.KernelIdeal.Skeleton
import proofs.«157819_j37675453120772_1_alg».proof.Proof.Dense
import proofs.«157819_j37675453120772_1_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GinBody

open Cert.KernelIdeal Cert.KernelIdeal.Gen Idealize.ShloMosaic Idealize.ShloMosaic.ValueIdx

/-- The first layer's stored block: 128 output features from 128 input features. Entry (p, q) is the sum over k of
    (x[p, k] + agg[p, k]) · W[q, k], plus the bias at q, clamped at zero. -/
theorem pay0_eq (x0 x1 : Vec Ideal S5000x128 .f32) (x2 : Vec Ideal S128x128 .f32) (x3 : Vec Ideal S1x128 .f32) :
    k0_pay1 (F := Ideal) x0 x1 x2 x3 = Cert.GinDense.dense (N := 5000) (D := 128) (K := 128) x0 x1 x2 x3 := by
  funext j
  obtain ⟨p, q, rfl⟩ : ∃ (p : Fin 5000) (q : Fin 128), j = ix2 p q := ⟨j 0, j 1, eq_ix2 j⟩
  rw [Cert.GinDense.dense_apply]
  unfold k0_pay1
  have hmm : matmul (F := Ideal) dot_S5000x128_S128x128_S5000x128_1_1_0_0_n_n none
        (truncf .bf16 (addf x0 (shapeCast S5000x128 x1 shapeCasts_S5000x128_S5000x128)) bitsLt_bf16_f32)
        (truncf .bf16 x2 bitsLt_bf16_f32) (constant (F := Ideal) S5000x128 .f32 0x00000000#32) (ix2 p q)
      = ∑ k : Fin 128, (x0 (ix2 p k) + x1 (ix2 p k)) * x2 (ix2 q k) := by
    rw [shapeCast_self]
    exact Cert.DotNT.matmul_zero_apply (M := 5000) (K := 128) (N := 128) dot_S5000x128_S128x128_S5000x128_1_1_0_0_n_n rfl none _ _ p q
  have hb : broadcastTo S5000x128 (shapeCast S1x128 x3 shapeCasts_S1x128_S1x128) broadcasts_S1x128_S5000x128 (ix2 p q)
      = x3 (ix2 (0 : Fin 1) q) := by
    rw [shapeCast_self]
    exact broadcastTo_1b_ab_apply x3 broadcasts_S1x128_S5000x128 p q
  show max (_ + _) _ = _
  refine congrArg₂ max (congrArg₂ (· + ·) hmm hb) ?_
  exact Ideal.ofBits_zero_f32

/-- The second layer's stored block: 64 output features from 128 input features, the same arithmetic. -/
theorem pay1_eq (x0 x1 : Vec Ideal S5000x128 .f32) (x2 : Vec Ideal S64x128 .f32) (x3 : Vec Ideal S1x64 .f32) :
    k1_pay1 (F := Ideal) x0 x1 x2 x3 = Cert.GinDense.dense (N := 5000) (D := 64) (K := 128) x0 x1 x2 x3 := by
  funext j
  obtain ⟨p, q, rfl⟩ : ∃ (p : Fin 5000) (q : Fin 64), j = ix2 p q := ⟨j 0, j 1, eq_ix2 j⟩
  rw [Cert.GinDense.dense_apply]
  unfold k1_pay1
  have hmm : matmul (F := Ideal) dot_S5000x128_S64x128_S5000x64_1_1_0_0_n_n none
        (truncf .bf16 (addf (shapeCast S5000x128 x0 shapeCasts_S5000x128_S5000x128) (shapeCast S5000x128 x1 shapeCasts_S5000x128_S5000x128)) bitsLt_bf16_f32)
        (truncf .bf16 x2 bitsLt_bf16_f32) (constant (F := Ideal) S5000x64 .f32 0x00000000#32) (ix2 p q)
      = ∑ k : Fin 128, (x0 (ix2 p k) + x1 (ix2 p k)) * x2 (ix2 q k) := by
    rw [shapeCast_self, shapeCast_self]
    exact Cert.DotNT.matmul_zero_apply (M := 5000) (K := 128) (N := 64) dot_S5000x128_S64x128_S5000x64_1_1_0_0_n_n rfl none _ _ p q
  have hb : broadcastTo S5000x64 (shapeCast S1x64 x3 shapeCasts_S1x64_S1x64) broadcasts_S1x64_S5000x64 (ix2 p q)
      = x3 (ix2 (0 : Fin 1) q) := by
    rw [shapeCast_self]
    exact broadcastTo_1b_ab_apply x3 broadcasts_S1x64_S5000x64 p q
  show max (_ + _) _ = _
  refine congrArg₂ max (congrArg₂ (· + ·) hmm hb) ?_
  exact Ideal.ofBits_zero_f32

end Cert.KernelIdeal.GinBody

end
-- ==== Proof.RegionArray.lean ====
/-
  From blocks to arrays: what each dense-layer region leaves in its output array.
  A region runs its body at ten grid points; point t stages rows 5000·t … 5000·t + 4999 of the node features and of the
  aggregated features, the whole weight and the whole bias row, and writes back rows 5000·t … 5000·t + 4999 of the
  output. The body's stored block is the dense layer of the loaded blocks, and an entry of the layer depends only on
  its own row of x and agg, so what point t writes back is block t of the dense layer of the WHOLE arrays; the ten
  blocks tile the output, so the output array ends holding that layer. Stated for any contents `V` the region is
  entered with.
-/
import proofs.«157819_j37675453120772_1_alg».proof.Proof.Gen.KernelIdeal.Frame
import proofs.«157819_j37675453120772_1_alg».proof.Proof.Body
import proofs.«157819_j37675453120772_1_alg».proof.Proof.Dense
import Idealize.ShloMosaic.Lib.Pipeline.Value
import Idealize.ShloMosaic.Lib.ValueIdx

set_option maxRecDepth 16384

noncomputable section

namespace Cert.KernelIdeal.GinRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer, 128 output features -/

/-- What region 0's output array ends holding: the dense layer of the four arrays its windows stage. -/
abbrev G0 (a0 a1 : S50000x128.Idx → Elt Ideal .f32) (a2 : S128x128.Idx → Elt Ideal .f32) (a3 : S1x128.Idx → Elt Ideal .f32) :
    S50000x128.Idx → Elt Ideal .f32 :=
  Cert.GinDense.dense (N := 50000) (D := 128) (K := 128) a0 a1 a2 a3

/-- The index maps over the grid: the two row-tiled inputs move with the output's row block, the weight and the
    bias row stay at their one block, and the output's row block at point `t` is block `t`. -/
theorem idx_facts0 : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every row block of the output is some point's. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- The weight's window is its whole array at every point. -/
theorem wblk0 (c : Dev nD) (t : Fin cfg0.N) : iblk0 V c 2 t = V c main_arg2 := by
  obtain ⟨-, -, -, -, e4, e5, -, -, -, -⟩ := idx_facts0 t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's window is its whole array at every point. -/
theorem bblk0 (c : Dev nD) (t : Fin cfg0.N) : iblk0 V c 3 t = V c main_v35 := by
  obtain ⟨-, -, -, -, -, -, e6, e7, -, -⟩ := idx_facts0 t
  funext y
  show V c main_v35 (((cfg0.win 3).blk t).view.emb y) = V c main_v35 y
  refine congrArg (V c main_v35) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- WHAT POINT `t` WRITES BACK is block `t` of the dense layer of the arrays as the region finds them: the body's stored
    value is the layer of its loaded blocks, a row of a loaded block of x or agg is the row of the array at the same
    place of the output's block, and the layer's entry depends on that row only. -/
theorem flushed0_eq (c : Dev nD) (t : Fin cfg0.N) :
    (dat0 (F := Ideal) V c).flushed 4 t
      = ((cfg0.win 4).blk t).view.read (Elt Ideal) (G0 (V c main_arg0) (V c main_v34) (V c main_arg2) (V c main_v35)) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S128x128) hz, View.ld_unit_zero (S := S1x128) hz]
  rw [Cert.KernelIdeal.GinBody.pay0_eq, wblk0 V c t, bblk0 V c t]
  obtain ⟨e0, e1, e2, e3, -, -, -, -, -, e9⟩ := idx_facts0 t
  funext j
  show Cert.GinDense.dense (N := 5000) (D := 128) (K := 128) (iblk0 V c 0 t) (iblk0 V c 1 t) (V c main_arg2) (V c main_v35) j
    = Cert.GinDense.dense (N := 50000) (D := 128) (K := 128) (V c main_arg0) (V c main_v34) (V c main_arg2) (V c main_v35) (((cfg0.win 4).blk t).view.emb j)
  refine Cert.GinDense.dense_block (N := 50000) (D := 128) (K := 128) (n := 5000) _ _ _ _ _ _ _ _ j _ rfl rfl (fun k => ?_) (fun k => ?_) ?_
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · show V c main_v34 (((cfg0.win 1).blk t).view.emb (ix2 (j 0) k)) = V c main_v34 (ix2 ((((cfg0.win 4).blk t).view.emb j) 0) k)
    refine congrArg (V c main_v34) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  · show (j 1).val = win0_4.index t (1 : Fin 2) * 128 + 1 * (j 1).val; omega

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v36).slice (win0_4.rect t)).set ↔ _
  rw [View.set_slice_whole, Rect.mem_set_unit]
  exact Iff.rfl

/-- The ten row blocks tile the output: row `r` is in the block of point `r / 5000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY after region 0: the dense layer of the arrays the region was entered with. -/
theorem array0 (c : Dev nD) :
    (dat0 (F := Ideal) V c).arrAt 4 cfg0.N = G0 (V c main_arg0) (V c main_v34) (V c main_arg2) (V c main_v35) :=
  (dat0 (F := Ideal) V c).arrAt_eq_of_cover 4 (G0 (V c main_arg0) (V c main_v34) (V c main_arg2) (V c main_v35))
    (fun t _ => flushed0_eq V c t) (cover0)

/-! ## Region 1: the second layer, 64 output features -/

/-- What region 1's output array ends holding: the dense layer of the four arrays its windows stage. -/
abbrev G1 (a0 a1 : S50000x128.Idx → Elt Ideal .f32) (a2 : S64x128.Idx → Elt Ideal .f32) (a3 : S1x64.Idx → Elt Ideal .f32) :
    S50000x64.Idx → Elt Ideal .f32 :=
  Cert.GinDense.dense (N := 50000) (D := 64) (K := 128) a0 a1 a2 a3

/-- The index maps over the grid: the two row-tiled inputs move with the output's row block, the weight and the
    bias row stay at their one block, and the output's row block at point `t` is block `t`. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

/-- Every row block of the output is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- The weight's window is its whole array at every point. -/
theorem wblk1 (c : Dev nD) (t : Fin cfg1.N) : iblk1 V c 2 t = V c main_arg4 := by
  obtain ⟨-, -, -, -, e4, e5, -, -, -, -⟩ := idx_facts1 t
  funext y
  show V c main_arg4 (((cfg1.win 2).blk t).view.emb y) = V c main_arg4 y
  refine congrArg (V c main_arg4) (funext fun a => Fin.ext ?_)
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- The bias row's window is its whole array at every point. -/
theorem bblk1 (c : Dev nD) (t : Fin cfg1.N) : iblk1 V c 3 t = V c main_v72 := by
  obtain ⟨-, -, -, -, -, -, e6, e7, -, -⟩ := idx_facts1 t
  funext y
  show V c main_v72 (((cfg1.win 3).blk t).view.emb y) = V c main_v72 y
  refine congrArg (V c main_v72) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- WHAT POINT `t` WRITES BACK is block `t` of the dense layer of the arrays as the region finds them: the body's stored
    value is the layer of its loaded blocks, a row of a loaded block of x or agg is the row of the array at the same
    place of the output's block, and the layer's entry depends on that row only. -/
theorem flushed1_eq (c : Dev nD) (t : Fin cfg1.N) :
    (dat1 (F := Ideal) V c).flushed 4 t
      = ((cfg1.win 4).blk t).view.read (Elt Ideal) (G1 (V c main_v36) (V c main_v71) (V c main_arg4) (V c main_v72)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S64x128) hz, View.ld_unit_zero (S := S1x64) hz]
  rw [Cert.KernelIdeal.GinBody.pay1_eq, wblk1 V c t, bblk1 V c t]
  obtain ⟨e0, e1, e2, e3, -, -, -, -, -, e9⟩ := idx_facts1 t
  funext j
  show Cert.GinDense.dense (N := 5000) (D := 64) (K := 128) (iblk1 V c 0 t) (iblk1 V c 1 t) (V c main_arg4) (V c main_v72) j
    = Cert.GinDense.dense (N := 50000) (D := 64) (K := 128) (V c main_v36) (V c main_v71) (V c main_arg4) (V c main_v72) (((cfg1.win 4).blk t).view.emb j)
  refine Cert.GinDense.dense_block (N := 50000) (D := 64) (K := 128) (n := 5000) _ _ _ _ _ _ _ _ j _ rfl rfl (fun k => ?_) (fun k => ?_) ?_
  · show V c main_v36 (((cfg1.win 0).blk t).view.emb (ix2 (j 0) k)) = V c main_v36 (ix2 ((((cfg1.win 4).blk t).view.emb j) 0) k)
    refine congrArg (V c main_v36) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v71 (((cfg1.win 1).blk t).view.emb (ix2 (j 0) k)) = V c main_v71 (ix2 ((((cfg1.win 4).blk t).view.emb j) 0) k)
    refine congrArg (V c main_v71) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · show (j 1).val = win1_4.index t (1 : Fin 2) * 64 + 1 * (j 1).val; omega

/-- An index of the output array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v73).slice (win1_4.rect t)).set ↔ _
  rw [View.set_slice_whole, Rect.mem_set_unit]
  exact Iff.rfl

/-- The ten row blocks tile the output: row `r` is in the block of point `r / 5000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY after region 1: the dense layer of the arrays the region was entered with. -/
theorem array1 (c : Dev nD) :
    (dat1 (F := Ideal) V c).arrAt 4 cfg1.N = G1 (V c main_v36) (V c main_v71) (V c main_arg4) (V c main_v72) :=
  (dat1 (F := Ideal) V c).arrAt_eq_of_cover 4 (G1 (V c main_v36) (V c main_v71) (V c main_arg4) (V c main_v72))
    (fun t _ => flushed1_eq V c t) (cover1)

end Cert.KernelIdeal.GinRegion

end
-- ==== Proof.HostEntry.lean ====
/-
  What the host operations hand to each dense-layer region, and what they leave alone.
  Before the first region the host computes, from the node features x, the edge weights w and the edge endpoints
  src / dst, the aggregated features agg(x, w, src, dst) — a normalised scatter-add of gathered rows — and lays the
  bias out as a row. Between the regions it computes the same aggregation of the first layer's output h in place of
  x. The aggregation is the same composition of operations each time, and it is the composition the reference
  program applies; it is never opened here, only named: `agg`.
-/
import proofs.«157819_j37675453120772_1_alg».proof.Proof.Gen.KernelIdeal.Frame
import proofs.«157819_j37675453120772_1_alg».proof.Proof.Gen.ReferenceIdeal.Read
import Idealize.ShloMosaic.Lib.StableHlo.Run

set_option maxRecDepth 16384

noncomputable section

namespace Cert.KernelIdeal.GinHost

open Cert.KernelIdeal Cert.KernelIdeal.Gen
open Idealize.ShloMosaic Idealize.ShloMosaic.TcCoe Idealize.SL.Sem Idealize.ShloMosaic.StableHlo

/-- The aggregation of features `x` over the weighted edges: the reference program's own composition of gathers,
    scatter-adds and normalisations, as a function of (x, w, src, dst). -/
abbrev agg (x : (⟨Cert.ReferenceIdeal.S50000x128, .f32⟩ : BufTy).Contents (Elt Ideal))
    (w : (⟨Cert.ReferenceIdeal.S800000, .f32⟩ : BufTy).Contents (Elt Ideal))
    (src dst : (⟨Cert.ReferenceIdeal.S800000, .i32⟩ : BufTy).Contents (Elt Ideal)) :
    (⟨Cert.ReferenceIdeal.S50000x128, .f32⟩ : BufTy).Contents (Elt Ideal) :=
  Cert.ReferenceIdeal.Read.val_main_v34 (F := Ideal) x w src dst

variable (m : (ℓ : Loc nD τ sig) → Buf (Elt Ideal) ℓ) (ρ : Dev nD → PrngReg) (c : Dev nD)

/-! ## At the first region's entry -/

/-- The node features are as launched. -/
theorem entry0_x : V1 m ρ c main_arg0 = (m ((c : Thread nD τ).loc main_arg0)) := by
  show StableHlo.after hostOps0 (W0 m ρ c) (Proc.devRef .tc main_arg0) = _
  after_results_simp <;> rfl

/-- The first layer's weight is as launched. -/
theorem entry0_w : V1 m ρ c main_arg2 = (m ((c : Thread nD τ).loc main_arg2)) := by
  show StableHlo.after hostOps0 (W0 m ρ c) (Proc.devRef .tc main_arg2) = _
  after_results_simp <;> rfl

/-- The aggregated features are the aggregation of the launched node features. -/
theorem entry0_agg : V1 m ρ c main_v34 = agg (m ((c : Thread nD τ).loc main_arg0)) (m ((c : Thread nD τ).loc main_arg1)) (m ((c : Thread nD τ).loc main_arg6)) (m ((c : Thread nD τ).loc main_arg7)) := by
  show StableHlo.after hostOps0 (W0 m ρ c) (Proc.devRef .tc main_v34) = _
  after_results_simp <;> rfl

/-- The first layer's bias, laid out as a row. -/
theorem entry0_b : V1 m ρ c main_v35 = shapeCast S1x128 (m ((c : Thread nD τ).loc main_arg3)) shapeCasts_S128_S1x128 := by
  show StableHlo.after hostOps0 (W0 m ρ c) (Proc.devRef .tc main_v35) = _
  after_results_simp <;> rfl

/-! ## What the first region and the first host stretch leave alone -/

/-- An argument that is none of the first region's arrays and that no host operation writes is as launched after
    the first region. -/
theorem mid_arg1 : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)
theorem mid_arg4 : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)
theorem mid_arg5 : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)
theorem mid_arg6 : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)
theorem mid_arg7 : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-! ## At the second region's entry -/

/-- The first layer's output is what the first region left. -/
theorem entry1_h : V3 m ρ c main_v36 = W2 m ρ c (Proc.devRef .tc main_v36) := by
  show StableHlo.after hostOps1 (W2 m ρ c) (Proc.devRef .tc main_v36) = _
  after_results_simp <;> rfl

/-- The second layer's weight is what the first region left of it. -/
theorem entry1_w : V3 m ρ c main_arg4 = W2 m ρ c (Proc.devRef .tc main_arg4) := by
  show StableHlo.after hostOps1 (W2 m ρ c) (Proc.devRef .tc main_arg4) = _
  after_results_simp <;> rfl

/-- The second aggregated features are the aggregation of the first layer's output. -/
theorem entry1_agg : V3 m ρ c main_v71
    = agg (W2 m ρ c (Proc.devRef .tc main_v36)) (W2 m ρ c (Proc.devRef .tc main_arg1)) (W2 m ρ c (Proc.devRef .tc main_arg6)) (W2 m ρ c (Proc.devRef .tc main_arg7)) := by
  show StableHlo.after hostOps1 (W2 m ρ c) (Proc.devRef .tc main_v71) = _
  after_results_simp <;> rfl

/-- The second layer's bias, laid out as a row. -/
theorem entry1_b : V3 m ρ c main_v72 = shapeCast S1x64 (W2 m ρ c (Proc.devRef .tc main_arg5)) shapeCasts_S64_S1x64 := by
  show StableHlo.after hostOps1 (W2 m ρ c) (Proc.devRef .tc main_v72) = _
  after_results_simp <;> rfl

end Cert.KernelIdeal.GinHost

end
-- ==== Proof.Result.lean ====
/-
  The idealized kernel program's result as one function of its arguments.
  Write agg for the aggregation and dense for the dense layer. The first region is entered with x, agg(x), W₁ and
  the row layout of b₁, so it leaves h = dense x agg(x) W₁ b₁ in its output array. The host operations between the
  regions read h and the edge data and leave agg(h); nothing writes the arguments. The second region is entered with
  h, agg(h), W₂ and the row layout of b₂, so the result is dense h agg(h) W₂ b₂.
-/
import proofs.«157819_j37675453120772_1_alg».proof.Proof.RegionArray
import proofs.«157819_j37675453120772_1_alg».proof.Proof.HostEntry

set_option maxRecDepth 16384

noncomputable section

namespace Cert.KernelIdeal.GinResult

open Cert.KernelIdeal Cert.KernelIdeal.Gen Cert.KernelIdeal.GinHost Cert.KernelIdeal.GinRegion
open Idealize.ShloMosaic Idealize.ShloMosaic.TcCoe Idealize.SL.Sem

variable (m : (ℓ : Loc nD τ sig) → Buf (Elt Ideal) ℓ) (ρ : Dev nD → PrngReg) (c : Dev nD)

/-- The first layer's output as a function of the arguments. -/
abbrev hidden : S50000x128.Idx → Elt Ideal .f32 :=
  G0 (m ((c : Thread nD τ).loc main_arg0)) (agg (m ((c : Thread nD τ).loc main_arg0)) (m ((c : Thread nD τ).loc main_arg1)) (m ((c : Thread nD τ).loc main_arg6)) (m ((c : Thread nD τ).loc main_arg7))) (m ((c : Thread nD τ).loc main_arg2)) (shapeCast S1x128 (m ((c : Thread nD τ).loc main_arg3)) shapeCasts_S128_S1x128)

/-- After the first region its output array holds the first layer of the arguments. -/
theorem mid_h : W2 m ρ c (Proc.devRef .tc main_v36) = hidden m c := by
  refine (W2_arr m ρ c 4).trans ?_
  rw [array0 (V1 m ρ) c, entry0_x m ρ c, entry0_agg m ρ c, entry0_w m ρ c, entry0_b m ρ c]

/-- THE RESULT: the second layer of the first layer's output, its aggregation, the second weight and the second
    bias as a row. -/
theorem result : W4 m ρ c (Proc.devRef .tc main_v73)
    = G1 (hidden m c) (agg (hidden m c) (m ((c : Thread nD τ).loc main_arg1)) (m ((c : Thread nD τ).loc main_arg6)) (m ((c : Thread nD τ).loc main_arg7))) (m ((c : Thread nD τ).loc main_arg4)) (shapeCast S1x64 (m ((c : Thread nD τ).loc main_arg5)) shapeCasts_S64_S1x64) := by
  refine (W4_arr m ρ c 4).trans ?_
  rw [array1 (V3 m ρ) c, entry1_h m ρ c, entry1_agg m ρ c, entry1_w m ρ c, entry1_b m ρ c, mid_h m ρ c,
    mid_arg1 m ρ c, mid_arg4 m ρ c, mid_arg5 m ρ c, mid_arg6 m ρ c, mid_arg7 m ρ c]

end Cert.KernelIdeal.GinResult

end
-- ==== Proof.RefLayers.lean ====
/-
  The reference program's two layers, each read as the dense layer of `Cert.GinDense`, over the extended reals.

  The reference computes, twice in a row,

      h[r, c] = max ( Σ_k (x[r, k] + agg(x)[r, k]) · W[c, k]  +  b[c] ,  0 ),

  where `agg` is a neighbourhood aggregation (gather the neighbours' rows, weight them, add them up per node, divide by a
  per-node count). Nothing here depends on what `agg` computes: it is carried as one function of the node features (and of
  the edge data, which both layers share). What is proved:

    * the first layer's output is `dense x agg(x) W₁ b₁`;
    * the second layer's aggregation is the SAME function `agg`, applied to the first layer's output;
    * the second layer's output is `dense h agg(h) W₂ b₂` with `h` the first layer's output;
    * the program's result is that second layer, as a function of the program's arguments.

  The weight of each layer is stored with the output feature on its first axis, and the program transposes it before
  contracting; read at an index the transposition disappears: entry (k, c) of the transposed weight is W[c, k]. The bias
  is first laid out as a row and then repeated down the rows, so the entry added at (r, c) is entry (0, c) of the row.
-/
import proofs.«157819_j37675453120772_1_alg».proof.Proof.Gen.ReferenceIdeal.Read
import proofs.«157819_j37675453120772_1_alg».proof.Proof.Dense
import Idealize.ShloMosaic.Lib.ValueIdx
import Idealize.ShloMosaic.PureOps.Ideal.Laws

noncomputable section

namespace Cert.GinRef

open Cert.ReferenceIdeal Cert.ReferenceIdeal.Gen Cert.ReferenceIdeal.Read Idealize.ShloMosaic Idealize.ShloMosaic.TcCoe
  Idealize.SL.Sem Idealize.ShloMosaic.ValueIdx

/-! ## The index maps of the first layer, at an index given by its coordinates -/

/-- The contraction's left operand at output entry (r, c) and contraction position k is read at (r, k). -/
theorem lidx37_ix2 (r : Fin 50000) (c : Fin 128) (k : Fin 128) :
    lidx_main_v37 (ix2 r c) k = ix2 r k :=
  funext fun a => Fin.ext (by match a with | ⟨0, _⟩ => rfl | ⟨1, _⟩ => rfl)

/-- The contraction's right operand (the transposed weight) at output entry (r, c) and position k is read at (k, c). -/
theorem ridx37_ix2 (r : Fin 50000) (c : Fin 128) (k : Fin 128) :
    ridx_main_v37 (ix2 r c) k = ix2 k c :=
  funext fun a => Fin.ext (by match a with | ⟨0, _⟩ => rfl | ⟨1, _⟩ => rfl)

/-- Entry (k, c) of the transposed weight is entry (c, k) of the weight. -/
theorem idx36_ix2 (k : Fin 128) (c : Fin 128) :
    idx_main_v36 (ix2 k c) = ix2 c k :=
  funext fun a => Fin.ext (by match a with | ⟨0, _⟩ => rfl | ⟨1, _⟩ => rfl)

/-- The bias repeated down the rows, at (r, c), is the bias row at (0, c). -/
theorem idx39_ix2 (r : Fin 50000) (c : Fin 128) :
    idx_main_v39 (ix2 r c) = ix2 (n0 := 1) (n1 := 128) 0 c :=
  funext fun a => Fin.ext (by match a with | ⟨0, _⟩ => rfl | ⟨1, _⟩ => rfl)

/-! ## The first layer -/

/-- The first layer at the entry with row r and column c: the maximum with zero of the contraction over k of
    (x + agg x)[r, k] · W₁[c, k], plus the bias row's entry (0, c). -/
theorem layer1_apply (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x6 x7 : (⟨S800000, .i32⟩ : BufTy).Contents (Elt Ideal)) (r : Fin 50000) (c : Fin 128) :
    val_main_v41 (F := Ideal) x0 x1 x2 x3 x6 x7 (ix2 r c)
      = Cert.GinDense.dense (N := 50000) (D := 128) (K := 128) x0 (val_main_v34 (F := Ideal) x0 x1 x6 x7) x2
          (broadcastInDim S1x128 ![1] bcast_S128_S1x128_1 x3) (ix2 r c) := by
  rw [val_main_v41_apply, val_main_v40_apply, val_main_v37_apply, val_main_v39_apply, val_main_call0_v0_apply,
    val_main_call0_cst_apply, Cert.GinDense.dense_apply]
  simp only [lidx37_ix2, ridx37_ix2, val_main_v35_apply, val_main_v36_apply, idx36_ix2, idx39_ix2, Ideal.addf_def,
    Ideal.mulf_def, Ideal.maximumf_def, Ideal.ofBits_def, Ideal.ofBits_zero_f32]
  rfl

/-- The first layer is the dense layer of the node features, their aggregation, the first weight and the first bias
    laid out as a row. -/
theorem layer1_eq (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x6 x7 : (⟨S800000, .i32⟩ : BufTy).Contents (Elt Ideal)) :
    val_main_v41 (F := Ideal) x0 x1 x2 x3 x6 x7
      = Cert.GinDense.dense (N := 50000) (D := 128) (K := 128) x0 (val_main_v34 (F := Ideal) x0 x1 x6 x7) x2
          (broadcastInDim S1x128 ![1] bcast_S128_S1x128_1 x3) := by
  funext i
  rw [eq_ix2 i]
  exact layer1_apply x0 x1 x2 x3 x6 x7 (i 0) (i 1)

/-! ## The second layer's aggregation is the first layer's, of the first layer's output

  Operation by operation the second aggregation repeats the first on freshly numbered buffers: the same constants, the
  same index clean-up of the edge endpoints, the same gather, edge weighting, scatter-add and division by the per-node
  count. The only operand that differs is the array of node features, which is now the first layer's output. -/

/-- The second layer's aggregated features are the aggregation function of the first layer applied to the first
    layer's output (with the same edge data). -/
theorem agg2_eq (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x6 x7 : (⟨S800000, .i32⟩ : BufTy).Contents (Elt Ideal)) :
    val_main_v76 (F := Ideal) x0 x1 x2 x3 x6 x7
      = val_main_v34 (F := Ideal) (val_main_v41 (F := Ideal) x0 x1 x2 x3 x6 x7) x1 x6 x7 := rfl

/-! ## The index maps of the second layer -/

/-- The second contraction's left operand at output entry (r, c) and position k is read at (r, k). -/
theorem lidx79_ix2 (r : Fin 50000) (c : Fin 64) (k : Fin 128) :
    lidx_main_v79 (ix2 r c) k = ix2 r k :=
  funext fun a => Fin.ext (by match a with | ⟨0, _⟩ => rfl | ⟨1, _⟩ => rfl)

/-- The second contraction's right operand (the transposed weight) at (r, c) and position k is read at (k, c). -/
theorem ridx79_ix2 (r : Fin 50000) (c : Fin 64) (k : Fin 128) :
    ridx_main_v79 (ix2 r c) k = ix2 k c :=
  funext fun a => Fin.ext (by match a with | ⟨0, _⟩ => rfl | ⟨1, _⟩ => rfl)

/-- Entry (k, c) of the transposed second weight is entry (c, k) of the weight. -/
theorem idx78_ix2 (k : Fin 128) (c : Fin 64) :
    idx_main_v78 (ix2 k c) = ix2 c k :=
  funext fun a => Fin.ext (by match a with | ⟨0, _⟩ => rfl | ⟨1, _⟩ => rfl)

/-- The second bias repeated down the rows, at (r, c), is the bias row at (0, c). -/
theorem idx81_ix2 (r : Fin 50000) (c : Fin 64) :
    idx_main_v81 (ix2 r c) = ix2 (n0 := 1) (n1 := 64) 0 c :=
  funext fun a => Fin.ext (by match a with | ⟨0, _⟩ => rfl | ⟨1, _⟩ => rfl)

/-! ## The second layer -/

/-- The second layer at the entry with row r and column c, with h the first layer's output: the maximum with zero of
    the contraction over k of (h + agg h)[r, k] · W₂[c, k], plus the second bias row's entry (0, c). -/
theorem layer2_apply (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (x6 x7 : (⟨S800000, .i32⟩ : BufTy).Contents (Elt Ideal)) (r : Fin 50000) (c : Fin 64) :
    val_main_v83 (F := Ideal) x0 x1 x2 x3 x4 x5 x6 x7 (ix2 r c)
      = Cert.GinDense.dense (N := 50000) (D := 64) (K := 128) (val_main_v41 (F := Ideal) x0 x1 x2 x3 x6 x7)
          (val_main_v34 (F := Ideal) (val_main_v41 (F := Ideal) x0 x1 x2 x3 x6 x7) x1 x6 x7) x4
          (broadcastInDim S1x64 ![1] bcast_S64_S1x64_1 x5) (ix2 r c) := by
  rw [val_main_v83_apply, val_main_v82_apply, val_main_v79_apply, val_main_v81_apply, val_main_call1_v0_apply,
    val_main_call1_cst_apply, Cert.GinDense.dense_apply]
  simp only [lidx79_ix2, ridx79_ix2, val_main_v77_apply, val_main_v78_apply, idx78_ix2, idx81_ix2, agg2_eq, Ideal.addf_def,
    Ideal.mulf_def, Ideal.maximumf_def, Ideal.ofBits_def, Ideal.ofBits_zero_f32]
  rfl

/-- The second layer is the dense layer of the first layer's output, its aggregation, the second weight and the second
    bias laid out as a row. -/
theorem layer2_eq (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (x6 x7 : (⟨S800000, .i32⟩ : BufTy).Contents (Elt Ideal)) :
    val_main_v83 (F := Ideal) x0 x1 x2 x3 x4 x5 x6 x7
      = Cert.GinDense.dense (N := 50000) (D := 64) (K := 128) (val_main_v41 (F := Ideal) x0 x1 x2 x3 x6 x7)
          (val_main_v34 (F := Ideal) (val_main_v41 (F := Ideal) x0 x1 x2 x3 x6 x7) x1 x6 x7) x4
          (broadcastInDim S1x64 ![1] bcast_S64_S1x64_1 x5) := by
  funext i
  rw [eq_ix2 i]
  exact layer2_apply x0 x1 x2 x3 x4 x5 x6 x7 (i 0) (i 1)

/-! ## The program's result -/

/-- The value the reference program returns, as a function of the launch contents of its eight arguments: the second
    dense layer of the first layer's output. -/
theorem result_eq (m : (ℓ : Loc nD τ sig) → Buf (Elt Ideal) ℓ) (c : Dev nD) :
    Cert.ReferenceIdeal.Value.res_main_v83 (F := Ideal) m c
      = Cert.GinDense.dense (N := 50000) (D := 64) (K := 128)
          (val_main_v41 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg6)) (m ((c.tc : Thread nD τ).loc main_arg7)))
          (val_main_v34 (F := Ideal)
            (val_main_v41 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg6)) (m ((c.tc : Thread nD τ).loc main_arg7)))
            (m ((c.tc : Thread nD τ).loc main_arg1)) (m ((c.tc : Thread nD τ).loc main_arg6))
            (m ((c.tc : Thread nD τ).loc main_arg7)))
          (m ((c.tc : Thread nD τ).loc main_arg4))
          (broadcastInDim S1x64 ![1] bcast_S64_S1x64_1 (m ((c.tc : Thread nD τ).loc main_arg5))) :=
  (val_main_v83_eq (F := Ideal) m c).trans (layer2_eq _ _ _ _ _ _ _ _)

end Cert.GinRef

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.lean ====
/-
  Two graph-network layers: a kernel program against its plain reference, equal over the extended reals.

  Both programs compute, twice in a row,   h = max( (x + agg(x)) · Wᵀ + b , 0 ),   where agg(x) gathers the source rows
  of x along the edges, weights them by normalised edge weights, scatter-adds them per destination node and divides by
  the node's in-degree. The two programs compute agg by the same host operations, so it is carried as one unopened
  function. They differ only in the dense part: the kernel program evaluates it on the chip, ten blocks of 5000 rows at
  a time, with the product taken in a narrower float format into a zero accumulator and the bias laid out as a row by
  a reshape; the reference evaluates it with one whole contraction against the transposed weight and lays the bias
  out by a broadcast. Over the extended reals a change of float format is the identity, a product accumulated into
  zero is the plain sum over the shared axis, a sum does not depend on its tiling, and the two layouts of the bias are
  the same row. So each side's layer is the one function `Cert.GinDense.dense`, and the results agree entry by entry.
  No step needs the inputs to be finite: only that addition and multiplication of extended reals are what they are.

  The three frame claims are the generated frames (the reference's is its generated run with the result dropped);
  the idealization rewrote no operation, so `preserves` holds trivially.
-/
import proofs.«157819_j37675453120772_1_alg».proof.Defs
import proofs.«157819_j37675453120772_1_alg».proof.Proof.Gen.Kernel
import proofs.«157819_j37675453120772_1_alg».proof.Proof.Gen.Kernel.Skeleton
import proofs.«157819_j37675453120772_1_alg».proof.Proof.Gen.Kernel.Launch
import proofs.«157819_j37675453120772_1_alg».proof.Proof.Gen.Kernel.Points
import proofs.«157819_j37675453120772_1_alg».proof.Proof.Gen.Kernel.Frame
import proofs.«157819_j37675453120772_1_alg».proof.Proof.Gen.KernelIdeal
import proofs.«157819_j37675453120772_1_alg».proof.Proof.Gen.KernelIdeal.Skeleton
import proofs.«157819_j37675453120772_1_alg».proof.Proof.Gen.KernelIdeal.Launch
import proofs.«157819_j37675453120772_1_alg».proof.Proof.Gen.KernelIdeal.Points
import proofs.«157819_j37675453120772_1_alg».proof.Proof.Gen.KernelIdeal.Frame
import proofs.«157819_j37675453120772_1_alg».proof.Proof.Gen.ReferenceIdeal
import proofs.«157819_j37675453120772_1_alg».proof.Proof.Gen.Pre_finite_inputs
import proofs.«157819_j37675453120772_1_alg».proof.Proof.Gen.ReferenceIdeal.Run
import proofs.«157819_j37675453120772_1_alg».proof.Proof.Gen.ReferenceIdeal.Read
import proofs.«157819_j37675453120772_1_alg».proof.Proof.KernelRun
import proofs.«157819_j37675453120772_1_alg».proof.Proof.Result
import proofs.«157819_j37675453120772_1_alg».proof.Proof.RefLayers
import proofs.«157819_j37675453120772_1_alg».proof.Proof.LibRowVector
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- THE TWO RESULTS ARE ONE FUNCTION. From launch memories that agree on the eight arguments, the kernel program's
    result (the second region's output array) is the reference program's composed result: both are the dense layer of
    h, agg(h), W₂ and b₂ as a row, with h the dense layer of x, agg(x), W₁ and b₁ as a row; the kernel program lays each
    bias out by a reshape and the reference by a broadcast along the second axis, which give the same row. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (h7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))) :
    Cert.KernelIdeal.Gen.W4 m ρ c (Proc.devRef .tc Cert.KernelIdeal.main_v73)
      = Cert.ReferenceIdeal.Value.res_main_v83 (F := Ideal) m' c := by
  rw [Cert.KernelIdeal.GinResult.result m ρ c, Cert.GinRef.result_eq m' c, Cert.GinRef.layer1_eq, h0, h1, h2, h3, h4, h5, h6, h7]
  have e1 := Cert.RowVector.reshape_eq_broadcast (n := 128) (m ((c.tc : Thread Cert.KernelIdeal.nD Cert.KernelIdeal.τ).loc Cert.KernelIdeal.main_arg3))
    Cert.KernelIdeal.Gen.shapeCasts_S128_S1x128 Cert.ReferenceIdeal.Gen.bcast_S128_S1x128_1
  have e2 := Cert.RowVector.reshape_eq_broadcast (n := 64) (m ((c.tc : Thread Cert.KernelIdeal.nD Cert.KernelIdeal.τ).loc Cert.KernelIdeal.main_arg5))
    Cert.KernelIdeal.Gen.shapeCasts_S64_S1x64 Cert.ReferenceIdeal.Gen.bcast_S64_S1x64_1
  dsimp only [Cert.KernelIdeal.GinResult.hidden, Cert.KernelIdeal.GinRegion.G0, Cert.KernelIdeal.GinRegion.G1, Cert.KernelIdeal.GinHost.agg]
  rw [e1, e2]

/-- Both idealized programs run, with equal results and unchanged arguments. -/
theorem algebraic : Cert.algebraic_KernelIdeal_ReferenceIdeal := by
  intro m ρ m' ρ' _ hagree
  refine ⟨fun c => Cert.ReferenceIdeal.Value.res_main_v83 (F := Ideal) m' c, ?_, Cert.ReferenceIdeal.Value.run (F := Ideal) m' ρ'⟩
  refine (θ_run Cert.KernelIdeal.defs _ _).mono (fun r h c => ⟨(h c).1.trans ?_, (h c).2⟩)
    (Cert.KernelIdeal.GinRun.run_result (F := Ideal) m ρ)
  obtain ⟨h0, h1, h2, h3, h4, h5, h6, h7⟩ := hagree c
  exact results_agree m ρ m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
